-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x32 : Shape := ⟨2, ![262144, 32]⟩
abbrev S27x32x32 : Shape := ⟨3, ![27, 32, 32]⟩
abbrev S32 : Shape := ⟨1, ![32]⟩
abbrev S3538944x2 : Shape := ⟨2, ![3538944, 2]⟩
abbrev S27 : Shape := ⟨1, ![27]⟩
abbrev S_ : Shape := ⟨0, ![]⟩

class Facts : Prop where
  bcast_S_S262144x32 : S_.BroadcastsInDim S262144x32 (![] : Fin 0 → Fin S262144x32.rank)
  reducesTo_S262144x32_S_d0_1 : S262144x32.ReducesTo [0, 1] S_
  h_S_ : 0 < S_.numel
  bcast_S_S27x32x32 : S_.BroadcastsInDim S27x32x32 (![] : Fin 0 → Fin S27x32x32.rank)
  reducesTo_S27x32x32_S_d0_1_2 : S27x32x32.ReducesTo [0, 1, 2] S_
  bcast_S_S32 : S_.BroadcastsInDim S32 (![] : Fin 0 → Fin S32.rank)
  reducesTo_S32_S_d0 : S32.ReducesTo [0] S_

variable [Facts]

def fn {F : FTy → Type} [FloatOps F] (main_arg0 : FVec F S262144x32 .f32) (main_arg1 : FVec F S27x32x32 .f32) (main_arg2 : FVec F S32 .f32) (main_arg3 : IVec S3538944x2 32) (main_arg4 : IVec S27 32) : IVec S_ 1 :=
  let main_v0 : FVec F S262144x32 .f32 := Host.absf main_arg0
  let main_cst : FVec F S_ .f32 := constant S_ .f32 0x7F800000#32
  let main_v1 : FVec F S262144x32 .f32 := broadcastInDim S262144x32 ![] bcast_S_S262144x32 main_cst
  let main_v2 : IVec S262144x32 1 := cmpf .olt main_v0 main_v1
  let main_c : IVec S_ 1 := constantI S_ 1 1#1
  let main_v3 : IVec S_ 1 := (fun x v => Host.reduce IntOp.andi x v reducesTo_S262144x32_S_d0_1 h_S_) main_v2 main_c
  let main_v4 : FVec F S27x32x32 .f32 := Host.absf main_arg1
  let main_cst_0 : FVec F S_ .f32 := constant S_ .f32 0x7F800000#32
  let main_v5 : FVec F S27x32x32 .f32 := broadcastInDim S27x32x32 ![] bcast_S_S27x32x32 main_cst_0
  let main_v6 : IVec S27x32x32 1 := cmpf .olt main_v4 main_v5
  let main_c_1 : IVec S_ 1 := constantI S_ 1 1#1
  let main_v7 : IVec S_ 1 := (fun x v => Host.reduce IntOp.andi x v reducesTo_S27x32x32_S_d0_1_2 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S262144x32 : Shape := ⟨2, ![262144, 32]⟩
abbrev S27x32x32 : Shape := ⟨3, ![27, 32, 32]⟩
abbrev S32 : Shape := ⟨1, ![32]⟩
abbrev S3538944x2 : Shape := ⟨2, ![3538944, 2]⟩
abbrev S27 : Shape := ⟨1, ![27]⟩
abbrev S3538944x1 : Shape := ⟨2, ![3538944, 1]⟩
abbrev S3538944 : Shape := ⟨1, ![3538944]⟩
abbrev S_ : Shape := ⟨0, ![]⟩
abbrev S3538944x32 : Shape := ⟨2, ![3538944, 32]⟩
abbrev S27x131072x32 : Shape := ⟨3, ![27, 131072, 32]⟩
abbrev S27x32768x128 : Shape := ⟨3, ![27, 32768, 128]⟩
abbrev S27x128x128 : Shape := ⟨3, ![27, 128, 128]⟩
abbrev S1 : Shape := ⟨1, ![1]⟩
abbrev S2 : Shape := ⟨1, ![2]⟩
abbrev S1x8192x128 : Shape := ⟨3, ![1, 8192, 128]⟩
abbrev S1x128x128 : Shape := ⟨3, ![1, 128, 128]⟩
abbrev S8192x128 : Shape := ⟨2, ![8192, 128]⟩
abbrev S128x128 : Shape := ⟨2, ![128, 128]⟩
abbrev S27x32768x4x32 : Shape := ⟨4, ![27, 32768, 4, 32]⟩
abbrev S1x32 : Shape := ⟨2, ![1, 32]⟩

abbrev nBuf : Space → Nat
  | .hbm => 59
  | .vmem => 6
  | .smem => 0
  | _ => 0

abbrev bufTy : (tb : Table) → Fin (tcTables nBuf tb) → BufTy
  | .hbm, ⟨0, _⟩ => ⟨S262144x32, .f32⟩
  | .hbm, ⟨1, _⟩ => ⟨S27x32x32, .f32⟩
  | .hbm, ⟨2, _⟩ => ⟨S32, .f32⟩
  | .hbm, ⟨3, _⟩ => ⟨S3538944x2, .i32⟩
  | .hbm, ⟨4, _⟩ => ⟨S27, .i32⟩
  | .hbm, ⟨5, _⟩ => ⟨S262144x32, .bf16⟩
  | .hbm, ⟨6, _⟩ => ⟨S3538944x1, .i32⟩
  | .hbm, ⟨7, _⟩ => ⟨S3538944, .i32⟩
  | .hbm, ⟨8, _⟩ => ⟨S_, .i32⟩
  | .hbm, ⟨9, _⟩ => ⟨S3538944, .i32⟩
  | .hbm, ⟨10, _⟩ => ⟨S3538944, .i1⟩
  | .hbm, ⟨11, _⟩ => ⟨S_, .i32⟩
  | .hbm, ⟨12, _⟩ => ⟨S3538944, .i32⟩
  | .hbm, ⟨13, _⟩ => ⟨S3538944, .i32⟩
  | .hbm, ⟨14, _⟩ => ⟨S3538944, .i32⟩
  | .hbm, ⟨15, _⟩ => ⟨S3538944x1, .i32⟩
  | .hbm, ⟨16, _⟩ => ⟨S3538944x32, .bf16⟩
  | .hbm, ⟨17, _⟩ => ⟨S27x131072x32, .bf16⟩
  | .hbm, ⟨18, _⟩ => ⟨S27x32768x128, .bf16⟩
  | .hbm, ⟨19, _⟩ => ⟨S_, .f32⟩
  | .hbm, ⟨20, _⟩ => ⟨S27x128x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S27x128x128, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S27x128x128, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S27x128x128, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S27x128x128, .f32⟩
  | .hbm, ⟨45, _⟩ => ⟨S27x128x128, .bf16⟩
  | .hbm, ⟨46, _⟩ => ⟨S27x32768x128, .f32⟩
  | .hbm, ⟨47, _⟩ => ⟨S27x32768x4x32, .f32⟩
  | .hbm, ⟨48, _⟩ => ⟨S27x131072x32, .f32⟩
  | .hbm, ⟨49, _⟩ => ⟨S3538944x32, .f32⟩
  | .hbm, ⟨50, _⟩ => ⟨S3538944x1, .i32⟩
  | .hbm, ⟨51, _⟩ => ⟨S3538944, .i32⟩
  | .hbm, ⟨52, _⟩ => ⟨S_, .f32⟩
  | .hbm, ⟨53, _⟩ => ⟨S262144x32, .f32⟩
  | .hbm, ⟨54, _⟩ => ⟨S3538944x1, .i32⟩
  | .hbm, ⟨55, _⟩ => ⟨S262144x32, .f32⟩
  | .hbm, ⟨56, _⟩ => ⟨S1x32, .f32⟩
  | .hbm, ⟨57, _⟩ => ⟨S262144x32, .f32⟩
  | .hbm, ⟨58, _⟩ => ⟨S262144x32, .f32⟩
  | .local _ .vmem, ⟨0, _⟩ => ⟨S1x8192x128, .bf16⟩
  | .local _ .vmem, ⟨1, _⟩ => ⟨S1x8192x128, .bf16⟩
  | .local _ .vmem, ⟨2, _⟩ => ⟨S1x128x128, .bf16⟩
  | .local _ .vmem, ⟨3, _⟩ => ⟨S1x128x128, .bf16⟩
  | .local _ .vmem, ⟨4, _⟩ => ⟨S1x8192x128, .f32⟩
  | .local _ .vmem, ⟨5, _⟩ => ⟨S1x8192x128, .f32⟩
  | _, _ => ⟨S262144x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_c_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_7 : Ref sig .tc := ⟨.hbm, 39, rfl⟩
abbrev main_v25 : Ref sig .tc := ⟨.hbm, 40, rfl⟩
abbrev main_c_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![27, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  slices_S3538944x2_S3538944x1_0_0 : S3538944x2.Slices ![0, 0] S3538944x1
  shapeCasts_S3538944x1_S3538944 : S3538944x1.ShapeCasts S3538944
  bcast_S_S3538944 : S_.BroadcastsInDim S3538944 (![] : Fin 0 → Fin S3538944.rank)
  bcast_S3538944_S3538944x1_0 : S3538944.BroadcastsInDim S3538944x1 (![0] : Fin 1 → Fin S3538944x1.rank)
  shapeCasts_S3538944x32_S27x131072x32 : S3538944x32.ShapeCasts S27x131072x32
  shapeCasts_S27x131072x32_S27x32768x128 : S27x131072x32.ShapeCasts S27x32768x128
  bcast_S_S27x128x128 : S_.BroadcastsInDim S27x128x128 (![] : Fin 0 → Fin S27x128x128.rank)
  bcast_S_S1 : S_.BroadcastsInDim S1 (![] : Fin 0 → Fin S1.rank)
  concatenates_S1_S1_S2_d0 : Shape.Concatenates [S1, S1] S2 0
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S8192x128_S1x8192x128 : S8192x128.ShapeCasts S1x8192x128
  shapeCasts_S27x32768x128_S27x32768x4x32 : S27x32768x128.ShapeCasts S27x32768x4x32
  shapeCasts_S27x32768x4x32_S27x131072x32 : S27x32768x4x32.ShapeCasts S27x131072x32
  shapeCasts_S27x131072x32_S3538944x32 : S27x131072x32.ShapeCasts S3538944x32
  slices_S3538944x2_S3538944x1_0_1 : S3538944x2.Slices ![0, 1] S3538944x1
  bcast_S_S262144x32 : S_.BroadcastsInDim S262144x32 (![] : Fin 0 → Fin S262144x32.rank)
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  gather_S262144x32_S3538944x1_S3538944x32_1_0_n_n_0_1_132_wf : GatherDims.WF S262144x32 S3538944x1 S3538944x32 [1] [0] [] [0] [] 1 ![1, 32]
  scatter_S27x128x128_S2_S27x32x32_012_n_12_0_wf : ScatterDims.WF S27x128x128 S2 S27x32x32 [0, 1, 2] [] [1, 2] 0
  dot_S8192x128_S128x128_S8192x128_1_0_0_1_n_n_wf : DotDims.WF S8192x128 S128x128 S8192x128 [1] [0] [0] [1] [] []
  scatter_S262144x32_S3538944x1_S3538944x32_1_0_0_1_wf : ScatterDims.WF S262144x32 S3538944x1 S3538944x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S27x32768x128.size a
  hwx0_0 : ∀ i : grid0.Coords, EltTy.bits .bf16 = 32 ∨ (Rect.block (s := S27x32768x128) S1x8192x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S27x128x128.size a
  hwx0_1 : ∀ i : grid0.Coords, EltTy.bits .bf16 = 32 ∨ (Rect.block (s := S27x128x128) S1x128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x128.size a ≤ S27x32768x128.size a
  hwx0_2 : ∀ i : grid0.Coords, EltTy.bits .f32 = 32 ∨ (Rect.block (s := S27x32768x128) S1x8192x128.size (cc0_transform_2 i) (hinb0_2 i)).WholeWords (EltTy.packing .f32)

variable [Facts₀]

def gather_S262144x32_S3538944x1_S3538944x32_1_0_n_n_0_1_132 : GatherDims S262144x32 S3538944x1 S3538944x32 where
  offsetDims := [1]
  collapsedSliceDims := [0]
  operandBatchingDims := []
  startIndicesBatchingDims := []
  startIndexMap := [0]
  indexVectorDim := 1
  sliceSizes := ![1, 32]
  wf := gather_S262144x32_S3538944x1_S3538944x32_1_0_n_n_0_1_132_wf
def scatter_S27x128x128_S2_S27x32x32_012_n_12_0 : ScatterDims S27x128x128 S2 S27x32x32 where
  updateWindowDims := [0, 1, 2]
  insertedWindowDims := []
  scatterDimsToOperandDims := [1, 2]
  indexVectorDim := 0
  wf := scatter_S27x128x128_S2_S27x32x32_012_n_12_0_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def scatter_S262144x32_S3538944x1_S3538944x32_1_0_0_1 : ScatterDims S262144x32 S3538944x1 S3538944x32 where
  updateWindowDims := [1]
  insertedWindowDims := [0]
  scatterDimsToOperandDims := [0]
  indexVectorDim := 1
  wf := scatter_S262144x32_S3538944x1_S3538944x32_1_0_0_1_wf

abbrev win0_0 : Pipeline.Window sig grid0 :=
  Pipeline.Window.ofSpec (Memref.whole main_v11) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x32 : Shape := ⟨2, ![262144, 32]⟩
abbrev S27x32x32 : Shape := ⟨3, ![27, 32, 32]⟩
abbrev S32 : Shape := ⟨1, ![32]⟩
abbrev S3538944x2 : Shape := ⟨2, ![3538944, 2]⟩
abbrev S27 : Shape := ⟨1, ![27]⟩
abbrev S3538944x1 : Shape := ⟨2, ![3538944, 1]⟩
abbrev S3538944 : Shape := ⟨1, ![3538944]⟩
abbrev S_ : Shape := ⟨0, ![]⟩
abbrev S3538944x32 : Shape := ⟨2, ![3538944, 32]⟩
abbrev S27x131072x32 : Shape := ⟨3, ![27, 131072, 32]⟩
abbrev S1x32 : Shape := ⟨2, ![1, 32]⟩

abbrev nBuf : Space → Nat
  | .hbm => 28
  | .vmem => 0
  | .smem => 0
  | _ => 0

abbrev bufTy : (tb : Table) → Fin (tcTables nBuf tb) → BufTy
  | .hbm, ⟨0, _⟩ => ⟨S262144x32, .f32⟩
  | .hbm, ⟨1, _⟩ => ⟨S27x32x32, .f32⟩
  | .hbm, ⟨2, _⟩ => ⟨S32, .f32⟩
  | .hbm, ⟨3, _⟩ => ⟨S3538944x2, .i32⟩
  | .hbm, ⟨4, _⟩ => ⟨S27, .i32⟩
  | .hbm, ⟨5, _⟩ => ⟨S3538944x1, .i32⟩
  | .hbm, ⟨6, _⟩ => ⟨S3538944, .i32⟩
  | .hbm, ⟨7, _⟩ => ⟨S_, .i32⟩
  | .hbm, ⟨8, _⟩ => ⟨S3538944, .i32⟩
  | .hbm, ⟨9, _⟩ => ⟨S3538944, .i1⟩
  | .hbm, ⟨10, _⟩ => ⟨S_, .i32⟩
  | .hbm, ⟨11, _⟩ => ⟨S3538944, .i32⟩
  | .hbm, ⟨12, _⟩ => ⟨S3538944, .i32⟩
  | .hbm, ⟨13, _⟩ => ⟨S3538944, .i32⟩
  | .hbm, ⟨14, _⟩ => ⟨S3538944x1, .i32⟩
  | .hbm, ⟨15, _⟩ => ⟨S3538944x32, .f32⟩
  | .hbm, ⟨16, _⟩ => ⟨S27x131072x32, .f32⟩
  | .hbm, ⟨17, _⟩ => ⟨S27x131072x32, .f32⟩
  | .hbm, ⟨18, _⟩ => ⟨S3538944x32, .f32⟩
  | .hbm, ⟨19, _⟩ => ⟨S3538944x1, .i32⟩
  | .hbm, ⟨20, _⟩ => ⟨S3538944, .i32⟩
  | .hbm, ⟨21, _⟩ => ⟨S_, .f32⟩
  | .hbm, ⟨22, _⟩ => ⟨S262144x32, .f32⟩
  | .hbm, ⟨23, _⟩ => ⟨S3538944x1, .i32⟩
  | .hbm, ⟨24, _⟩ => ⟨S262144x32, .f32⟩
  | .hbm, ⟨25, _⟩ => ⟨S1x32, .f32⟩
  | .hbm, ⟨26, _⟩ => ⟨S262144x32, .f32⟩
  | .hbm, ⟨27, _⟩ => ⟨S262144x32, .f32⟩
  | _, _ => ⟨S262144x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  slices_S3538944x2_S3538944x1_0_0 : S3538944x2.Slices ![0, 0] S3538944x1
  shapeCasts_S3538944x1_S3538944 : S3538944x1.ShapeCasts S3538944
  bcast_S_S3538944 : S_.BroadcastsInDim S3538944 (![] : Fin 0 → Fin S3538944.rank)
  bcast_S3538944_S3538944x1_0 : S3538944.BroadcastsInDim S3538944x1 (![0] : Fin 1 → Fin S3538944x1.rank)
  shapeCasts_S3538944x32_S27x131072x32 : S3538944x32.ShapeCasts S27x131072x32
  shapeCasts_S27x131072x32_S3538944x32 : S27x131072x32.ShapeCasts S3538944x32
  slices_S3538944x2_S3538944x1_0_1 : S3538944x2.Slices ![0, 1] S3538944x1
  bcast_S_S262144x32 : S_.BroadcastsInDim S262144x32 (![] : Fin 0 → Fin S262144x32.rank)
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  gather_S262144x32_S3538944x1_S3538944x32_1_0_n_n_0_1_132_wf : GatherDims.WF S262144x32 S3538944x1 S3538944x32 [1] [0] [] [0] [] 1 ![1, 32]
  dot_S27x131072x32_S27x32x32_S27x131072x32_2_1_1_2_0_0_wf : DotDims.WF S27x131072x32 S27x32x32 S27x131072x32 [2] [1] [1] [2] [0] [0]
  scatter_S262144x32_S3538944x1_S3538944x32_1_0_0_1_wf : ScatterDims.WF S262144x32 S3538944x1 S3538944x32 [1] [0] [0] 1

variable [Facts₀]

def gather_S262144x32_S3538944x1_S3538944x32_1_0_n_n_0_1_132 : GatherDims S262144x32 S3538944x1 S3538944x32 where
  offsetDims := [1]
  collapsedSliceDims := [0]
  operandBatchingDims := []
  startIndicesBatchingDims := []
  startIndexMap := [0]
  indexVectorDim := 1
  sliceSizes := ![1, 32]
  wf := gather_S262144x32_S3538944x1_S3538944x32_1_0_n_n_0_1_132_wf
def dot_S27x131072x32_S27x32x32_S27x131072x32_2_1_1_2_0_0 : DotDims S27x131072x32 S27x32x32 S27x131072x32 where
  lhsContracting := [2]
  rhsContracting := [1]
  lhsNonContracting := [1]
  rhsNonContracting := [2]
  lhsBatch := [0]
  rhsBatch := [0]
  wf := dot_S27x131072x32_S27x32x32_S27x131072x32_2_1_1_2_0_0_wf
def scatter_S262144x32_S3538944x1_S3538944x32_1_0_0_1 : ScatterDims S262144x32 S3538944x1 S3538944x32 where
  updateWindowDims := [1]
  insertedWindowDims := [0]
  scatterDimsToOperandDims := [0]
  indexVectorDim := 1
  wf := scatter_S262144x32_S3538944x1_S3538944x32_1_0_0_1_wf

class Facts : Prop extends Facts₀ where

variable [Facts]
-- ==== Proof.KDefs.lean ====
/-
  The host-side pieces of the sparse convolution, named.

  The program gathers one input row per (input, output) pair, folds four consecutive pairs into one 128-wide row,
  multiplies each folded row by a 128 x 128 weight made of four copies of the offset's 32 x 32 matrix on the diagonal
  (zero elsewhere), unfolds the product back to one 32-wide row per pair, adds every pair's row into the output row its
  pair names, and adds the bias. Each of those host-side steps is given a name here, as the function of the argument
  arrays the program computes, so that the modules on either side of the accelerator call can speak of them.
-/
import proofs.«131994_j1125281432057_2_alg».proof.Proof.Gen.KernelIdeal

noncomputable section

namespace Cert.KernelIdeal.Conv

open Cert.KernelIdeal Cert.KernelIdeal.Gen Idealize.ShloMosaic

variable {F : FTy → Type} [FloatOps F]

/-- The input voxel of every pair: column 0 of the pair table, a negative entry wrapped by the number of voxels,
    as a column of start indices for the gather. -/
def rowIdx (x3 : (⟨S3538944x2, .i32⟩ : BufTy).Contents (Elt F)) : (⟨S3538944x1, .i32⟩ : BufTy).Contents (Elt F) :=
  broadcastInDim S3538944x1 ![0] bcast_S3538944_S3538944x1_0
    (select
      (cmpi .slt (shapeCast S3538944 (extractStridedSlice S3538944x1 ![0, 0] x3 slices_S3538944x2_S3538944x1_0_0) shapeCasts_S3538944x1_S3538944)
        (broadcastInDim S3538944 ![] bcast_S_S3538944 (constantI S_ 32 0#32)))
      (addi (shapeCast S3538944 (extractStridedSlice S3538944x1 ![0, 0] x3 slices_S3538944x2_S3538944x1_0_0) shapeCasts_S3538944x1_S3538944)
        (broadcastInDim S3538944 ![] bcast_S_S3538944 (constantI S_ 32 262144#32)))
      (shapeCast S3538944 (extractStridedSlice S3538944x1 ![0, 0] x3 slices_S3538944x2_S3538944x1_0_0) shapeCasts_S3538944x1_S3538944))

/-- One gathered input row per pair. -/
def gathered (x0 : (⟨S262144x32, .f32⟩ : BufTy).Contents (Elt F)) (x3 : (⟨S3538944x2, .i32⟩ : BufTy).Contents (Elt F)) :
    (⟨S3538944x32, .bf16⟩ : BufTy).Contents (Elt F) :=
  Host.gather gather_S262144x32_S3538944x1_S3538944x32_1_0_n_n_0_1_132 (truncf .bf16 x0 bitsLt_bf16_f32) (rowIdx (F := F) x3)

/-- The gathered rows grouped by kernel offset, four consecutive pairs folded into one 128-wide row. -/
def packed (x0 : (⟨S262144x32, .f32⟩ : BufTy).Contents (Elt F)) (x3 : (⟨S3538944x2, .i32⟩ : BufTy).Contents (Elt F)) :
    (⟨S27x32768x128, .bf16⟩ : BufTy).Contents (Elt F) :=
  shapeCast S27x32768x128 (shapeCast S27x131072x32 (gathered (F := F) x0 x3) shapeCasts_S3538944x32_S27x131072x32)
    shapeCasts_S27x131072x32_S27x32768x128

/-- The start index (o, o) of one diagonal block, as the program builds it. -/
def diagStart (o : BitVec 32) : (⟨S2, .i32⟩ : BufTy).Contents (Elt F) :=
  concatenate S2 0 [⟨S1, broadcastInDim S1 ![] bcast_S_S1 (constantI S_ 32 o)⟩, ⟨S1, broadcastInDim S1 ![] bcast_S_S1 (constantI S_ 32 o)⟩]
    concatenates_S1_S1_S2_d0

/-- The 27 matrices written into the rows and columns [o, o + 32) of the 27 wide matrices `acc`. -/
def putBlock (o : BitVec 32) (acc : (⟨S27x128x128, .f32⟩ : BufTy).Contents (Elt F)) (x1 : (⟨S27x32x32, .f32⟩ : BufTy).Contents (Elt F)) :
    (⟨S27x128x128, .f32⟩ : BufTy).Contents (Elt F) :=
  Host.scatter scatter_S27x128x128_S2_S27x32x32_012_n_12_0 (fun _ b => b) acc (diagStart (F := F) o) x1

/-- The block-diagonal weight: zeros, then the four diagonal blocks written one after the other. -/
def w4 (x1 : (⟨S27x32x32, .f32⟩ : BufTy).Contents (Elt F)) : (⟨S27x128x128, .bf16⟩ : BufTy).Contents (Elt F) :=
  truncf .bf16 (putBlock 96#32 (putBlock 64#32 (putBlock 32#32 (putBlock 0#32
    (broadcastInDim S27x128x128 ![] bcast_S_S27x128x128 (constant S_ .f32 0x00000000#32)) x1) x1) x1) x1) bitsLt_bf16_f32

/-- The folded products unfolded to one 32-wide row per pair. -/
def unpack (y : (⟨S27x32768x128, .f32⟩ : BufTy).Contents (Elt F)) : (⟨S3538944x32, .f32⟩ : BufTy).Contents (Elt F) :=
  shapeCast S3538944x32 (shapeCast S27x131072x32 (shapeCast S27x32768x4x32 y shapeCasts_S27x32768x128_S27x32768x4x32)
    shapeCasts_S27x32768x4x32_S27x131072x32) shapeCasts_S27x131072x32_S3538944x32

/-- Every pair's row added into the output row its pair names (column 1 of the pair table), then the bias added to
    every output row. -/
def finish (x2 : (⟨S32, .f32⟩ : BufTy).Contents (Elt F)) (x3 : (⟨S3538944x2, .i32⟩ : BufTy).Contents (Elt F))
    (contrib : (⟨S3538944x32, .f32⟩ : BufTy).Contents (Elt F)) : (⟨S262144x32, .f32⟩ : BufTy).Contents (Elt F) :=
  addf
    (Host.scatterAdd scatter_S262144x32_S3538944x1_S3538944x32_1_0_0_1
      (broadcastInDim S262144x32 ![] bcast_S_S262144x32 (constant S_ .f32 0x00000000#32))
      (broadcastInDim S3538944x1 ![0] bcast_S3538944_S3538944x1_0
        (shapeCast S3538944 (extractStridedSlice S3538944x1 ![0, 1] x3 slices_S3538944x2_S3538944x1_0_1) shapeCasts_S3538944x1_S3538944))
      contrib)
    (broadcastInDim S262144x32 ![0, 1] bcast_S1x32_S262144x32_0_1 (broadcastInDim S1x32 ![1] bcast_S32_S1x32_1 x2))

end Cert.KernelIdeal.Conv

end
-- ==== Proof.Tail.lean ====
/-
  The program's run with its result named.

  After the accelerator call the program unfolds the folded products to one row per pair, adds every pair's row into
  the output row the pair table names, and adds the bias. Here that stretch of operations is read off as a function of
  the three arrays it reads, and the whole program's run is stated with the result buffer at that function of the
  argument arrays and of the array the accelerator call leaves.
-/
import proofs.«131994_j1125281432057_2_alg».proof.Proof.KDefs
import proofs.«131994_j1125281432057_2_alg».proof.Proof.Gen.KernelIdeal.Frame
import Idealize.ShloMosaic.Lib.StableHlo.Run
import Idealize.ShloMosaic.PureOps.Ideal

noncomputable section

namespace Cert.KernelIdeal.Conv

open Cert.KernelIdeal Cert.KernelIdeal.Gen Idealize.ShloMosaic Idealize.ShloMosaic.TcCoe Idealize.SL.Sem

variable {F : FTy → Type} [FloatOps F]

/-- The operations after the accelerator call, from any contents: the result buffer ends at the bias and the pair table
    applied to the unfolded contents of the accelerator call's output array. -/
theorem tail_val (W : Valuation τ sig (Elt F)) :
    StableHlo.after hostOps1 W (Proc.devRef .tc main_v41)
      = finish (F := F) (W (Proc.devRef .tc main_arg2)) (W (Proc.devRef .tc main_arg3)) (unpack (F := F) (W (Proc.devRef .tc main_v30))) := by
  after_results
  rfl

variable (m : (ℓ : Loc nD τ sig) → Buf (Elt F) ℓ)

/-- The result buffer after the whole program, on every core: the accelerator call's output array is what the run's
    proof data compute for it, and the bias and the pair table, which no operation writes, are as launched. -/
theorem tail_result (c : Dev nD) :
    Pipeline.afterTail₀ cfgs (dats (F := F) m) 0 (V0 m) [hostOps1] c main_v41
      = finish (F := F) (m ((c.tc : Thread nD τ).loc main_arg2)) (m ((c.tc : Thread nD τ).loc main_arg3))
          (unpack (F := F) ((dats (F := F) m 0 c).arrAt 2 cfg0.N)) := by
  unfold Pipeline.afterTail₀
  show StableHlo.after hostOps1 _ (Proc.devRef .tc main_v41) = _
  rw [tail_val]
  have h2 : Pipeline.withArrays (cfgs 0).spec c (V0 m c) (fun w => (dats (F := F) m 0 c).arrAt w (cfgs 0).N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans
      (V_main_arg2 m c)
  have h3 : Pipeline.withArrays (cfgs 0).spec c (V0 m c) (fun w => (dats (F := F) m 0 c).arrAt w (cfgs 0).N) (Proc.devRef .tc main_arg3)
      = m ((c.tc : Thread nD τ).loc main_arg3) :=
    (Pipeline.withArrays_of_ne _ c (V0 m c) _ main_arg3 (by exact (by decide : ∀ w, Pipeline.arrRef spec0 w ≠ main_arg3))).trans
      (V_main_arg3 m c)
  have h30 : Pipeline.withArrays (cfgs 0).spec c (V0 m c) (fun w => (dats (F := F) m 0 c).arrAt w (cfgs 0).N) (Proc.devRef .tc main_v30)
      = (dats (F := F) m 0 c).arrAt 2 cfg0.N :=
    Pipeline.withArrays_arr spec0 launch0.win.arr_inj c _ _ 2
  rw [h2, h3, h30]

/-- THE RUN with its result named: every weakly fair execution of the program on the cores terminates, and in every
    final state the result buffer holds the bias and the pair table applied to the unfolded array the accelerator call
    leaves, and the five argument arrays are as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v41)
          = finish (F := Ideal) (m ((c.tc : Thread nD τ).loc main_arg2)) (m ((c.tc : Thread nD τ).loc main_arg3)) (unpack (F := Ideal) ((dats (F := Ideal) m 0 c).arrAt 2 cfg0.N))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).2 main_v41 (Pipeline.mem_restRefs_of main_v41 (by decide) (by decide))).trans (tail_result m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩) (run_main m ρ)

end Cert.KernelIdeal.Conv

end
-- ==== Proof.Prefix.lean ====
/-
  What the accelerator call finds in its two input arrays.

  The host operations before the call compute, from the argument arrays alone, the folded gathered rows (the call's first
  operand) and the block-diagonal weight (its second): each is the named function of the arguments it was built from.
-/
import proofs.«131994_j1125281432057_2_alg».proof.Proof.Gen.KernelIdeal.Frame
import proofs.«131994_j1125281432057_2_alg».proof.Proof.KDefs
import Idealize.ShloMosaic.Lib.StableHlo.Run

noncomputable section

namespace Cert.KernelIdeal.Conv

open Cert.KernelIdeal Cert.KernelIdeal.Gen Idealize.ShloMosaic Idealize.ShloMosaic.TcCoe Idealize.SL.Sem Idealize.ShloMosaic.StableHlo

variable {F : FTy → Type} [FloatOps F]

/-- After the host operations before the call, from any contents `W`, the first operand's buffer holds the folded
    gathered rows of `W`'s input features and pair table. -/
theorem prefix_packed (W : Valuation τ sig (Elt F)) :
    StableHlo.after (hostOps0 (F := F)) W (Proc.devRef .tc main_v11)
      = packed (F := F) (W (Proc.devRef .tc main_arg0)) (W (Proc.devRef .tc main_arg3)) := by
  after_results_simp
  rfl

set_option maxHeartbeats 4000000 in
/-- After the same operations the second operand's buffer holds the block-diagonal weight of `W`'s kernel matrices. -/
theorem prefix_w4 (W : Valuation τ sig (Elt F)) :
    StableHlo.after (hostOps0 (F := F)) W (Proc.devRef .tc main_v29) = w4 (F := F) (W (Proc.devRef .tc main_arg1)) := by
  after_results
  rfl

variable (m : (ℓ : Loc nD τ sig) → Buf (Elt F) ℓ)

/-- The call's first operand as the region finds it. -/
theorem V_packed (c : Dev nD) :
    V m c main_v11 = packed (F := F) (m ((c.tc : Thread nD τ).loc main_arg0)) (m ((c.tc : Thread nD τ).loc main_arg3)) := by
  show StableHlo.after (hostOps0 (F := F)) (fun b => m (c, b)) (Proc.devRef .tc main_v11) = _
  exact prefix_packed (F := F) _

/-- The call's second operand as the region finds it. -/
theorem V_w4 (c : Dev nD) :
    V m c main_v29 = w4 (F := F) (m ((c.tc : Thread nD τ).loc main_arg1)) := by
  show StableHlo.after (hostOps0 (F := F)) (fun b => m (c, b)) (Proc.devRef .tc main_v29) = _
  exact prefix_w4 (F := F) _

end Cert.KernelIdeal.Conv

end
-- ==== Proof.LibPlainDot.lean ====
/-
  A matrix product with ONE contracted axis, read at an output entry over the extended reals.

  For a product of an [A, K] array by a [K, B] array whose dimension numbers send output entry (p, c) and contraction
  position k to the operand entries (p, k) and (k, c), the accelerator's matmul into a zero accumulator and the host's
  dot_general are both the plain sum  Σ_k lhs[p, k] · rhs[k, c]  — no rounding and no order of summation is left at the
  exact instance. The four coordinate facts are taken as hypotheses, so that one statement serves every such record.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {A K B : Nat} {φ₁ φ₂ : FTy}

/-- The contraction sum re-indexed by the one contracted coordinate, the operand entries written out. -/
theorem contr_sum (d : DotDims ⟨2, ![A, K]⟩ ⟨2, ![K, B]⟩ ⟨2, ![A, B]⟩)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    (∑ q : d.contr.Idx, lhs (d.lhsIdx (ix2 p c) q) * rhs (d.rhsIdx (ix2 p c) q))
      = ∑ k : Fin K, lhs (ix2 p k) * rhs (ix2 k c) := by
  rw [← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

/-- The matmul into the zero accumulator at entry (p, c) is Σ_k lhs[p, k] · rhs[k, c]. -/
theorem matmul_zero_apply (d : DotDims ⟨2, ![A, K]⟩ ⟨2, ![K, B]⟩ ⟨2, ![A, B]⟩) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    FloatOps.matmul d prec lhs rhs (constant (F := Ideal) ⟨2, ![A, B]⟩ .f32 0x00000000#32) (ix2 p c)
      = ∑ k : Fin K, lhs (ix2 p k) * rhs (ix2 k c) :=
  (Ideal.matmul_constant_zero_apply d prec lhs rhs (ix2 p c)).trans (contr_sum d hr hs hl0 hl1 hr0 hr1 lhs rhs p c)

/-- The host's dot_general at entry (p, c) is the same sum. -/
theorem dotGeneral_apply (d : DotDims ⟨2, ![A, K]⟩ ⟨2, ![K, B]⟩ ⟨2, ![A, B]⟩) (prec : Option ContractPrecision)
    (sched : HostSchedule)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    FloatOps.dotGeneral d prec sched lhs rhs (ix2 p c) = ∑ k : Fin K, lhs (ix2 p k) * rhs (ix2 k c) :=
  (Ideal.dotGeneral_apply d prec sched lhs rhs (ix2 p c)).trans (contr_sum d hr hs hl0 hl1 hr0 hr1 lhs rhs p c)

end Idealize.ShloMosaic.PlainDot

end
-- ==== Proof.Region.lean ====
/-
  What the accelerator call leaves in its output array, entry by entry, over the extended reals.

  The call runs over a 27 x 4 grid of points. At point (k, s) it holds rows [8192 s, 8192 s + 8192) of the k-th left
  matrix (a [1, 8192, 128] block) and the whole k-th right matrix (a [1, 128, 128] block), and it writes the
  [1, 8192, 128] block of the output at the place of the left block: the matrix product of the two, into a zero
  accumulator. Over the extended reals that product is a plain sum, so output entry (k, q, e) ends as
      Σ_j left (k, q, j) · right (k, j, e);
  it is written by the one point (k, q / 8192), and the blocks of the 108 points tile the output array.

  In order: the product's four coordinate facts and the body's value at an entry of its block (pay_apply); the same
  entry from the two operand arrays when the blocks are pieces of them (blk_point); which block each point works on
  (idx_facts); what a point writes back, first over any contents of the operand arrays (flushed_core), then at the
  contents the call finds (flushed_eq); the blocks cover the output (mem_blk, covered); the output array (region_out).
-/
import proofs.«131994_j1125281432057_2_alg».proof.Proof.Gen.KernelIdeal.Frame
import proofs.«131994_j1125281432057_2_alg».proof.Proof.LibPlainDot
import Idealize.ShloMosaic.Lib.Pipeline.Value
import Idealize.ShloMosaic.Lib.ValueIdx

noncomputable section

open scoped BigOperators

namespace Cert.KernelIdeal.Conv

open Cert.KernelIdeal Cert.KernelIdeal.Gen Idealize.ShloMosaic Idealize.ShloMosaic.ValueIdx
open Idealize.ShloMosaic.TcCoe Idealize.SL.Sem

/-- Row coordinate of the left operand entry the product reads: the output entry's row. -/
theorem dot_lhs0 (j : S8192x128.Idx) (q : (DotDims.contr dot_S8192x128_S128x128_S8192x128_1_0_0_1_n_n).Idx) :
    (DotDims.lhsIdx dot_S8192x128_S128x128_S8192x128_1_0_0_1_n_n j q 0).val = (j 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl

/-- Column coordinate of the right operand entry the product reads: the output entry's column. -/
theorem dot_rhs1 (j : S8192x128.Idx) (q : (DotDims.contr dot_S8192x128_S128x128_S8192x128_1_0_0_1_n_n).Idx) :
    (DotDims.rhsIdx dot_S8192x128_S128x128_S8192x128_1_0_0_1_n_n j q 1).val = (j 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- An index of a [1, a, b] array with leading coordinate 0 is the [a, b] index behind it. -/
theorem cons_zero_ix2 {n0 n1 : Nat} (a : Fin n0) (b : Fin n1) :
    (Fin.cons ⟨0, Nat.one_pos⟩ (ix2 a b) : (⟨2 + 1, Matrix.vecCons 1 ![n0, n1]⟩ : Shape).Idx) = ix3 (0 : Fin 1) a b := by
  funext d
  match d with
  | ⟨0, _⟩ => rfl
  | ⟨1, _⟩ => rfl
  | ⟨2, _⟩ => rfl

/-- The body's one value at entry (0, r, e) of its block: row r of the left block times column e of the right block. -/
theorem pay_apply (x0 : FVec Ideal S1x8192x128 .bf16) (x1 : FVec Ideal S1x128x128 .bf16) (r : Fin 8192) (e : Fin 128) :
    k0_pay1 (F := Ideal) x0 x1 (ix3 (0 : Fin 1) r e) = ∑ j : Fin 128, x0 (ix3 (0 : Fin 1) r j) * x1 (ix3 (0 : Fin 1) j e) := by
  unfold k0_pay1
  refine (shapeCast_addUnit_apply ![8192, 128] _ _ _).trans ?_
  have hj : (fun a : Fin 2 => (ix3 (0 : Fin 1) r e : S1x8192x128.Idx) a.succ) = ix2 r e := by
    funext a
    match a with
    | ⟨0, _⟩ => rfl
    | ⟨1, _⟩ => rfl
  rw [hj]
  refine (PlainDot.matmul_zero_apply dot_S8192x128_S128x128_S8192x128_1_0_0_1_n_n none rfl rfl
    (fun j q => dot_lhs0 j q)
    (fun j q => DotDims.lhsIdx_val_of_single dot_S8192x128_S128x128_S8192x128_1_0_0_1_n_n rfl j q)
    (fun j q => DotDims.rhsIdx_val_of_single dot_S8192x128_S128x128_S8192x128_1_0_0_1_n_n rfl j q)
    (fun j q => dot_rhs1 j q)
    (shapeCast S8192x128 x0 shapeCasts_S1x8192x128_S8192x128) (shapeCast S128x128 x1 shapeCasts_S1x128x128_S128x128) r e).trans ?_
  refine Finset.sum_congr rfl fun k _ => ?_
  rw [shapeCast_dropUnit_apply ![8192, 128] x0, shapeCast_dropUnit_apply ![128, 128] x1, cons_zero_ix2, cons_zero_ix2]

variable (m : (ℓ : Loc nD τ sig) → Buf (Elt Ideal) ℓ)

/-- The array the call leaves: entry (k, q, e) is row q of the k-th left matrix times column e of the k-th right matrix. -/
def prod (a0 : S27x32768x128.Idx → EReal) (a1 : S27x128x128.Idx → EReal) : S27x32768x128.Idx → EReal :=
  fun i => ∑ j : Fin 128, a0 (ix3 (i 0) (i 1) j) * a1 (ix3 (i 0) j (i 2))

/-- One entry of a block's value from the two blocks it is computed from, when those blocks' entries are the
    arrays' entries at the matching places. -/
theorem blk_point (x0 : FVec Ideal S1x8192x128 .bf16) (x1 : FVec Ideal S1x128x128 .bf16)
    (a0 : S27x32768x128.Idx → EReal) (a1 : S27x128x128.Idx → EReal) (y : S1x8192x128.Idx) (i : S27x32768x128.Idx)
    (h0 : ∀ j : Fin 128, x0 (ix3 (0 : Fin 1) (y 1) j) = a0 (ix3 (i 0) (i 1) j))
    (h1 : ∀ j : Fin 128, x1 (ix3 (0 : Fin 1) j (y 2)) = a1 (ix3 (i 0) j (i 2))) :
    k0_pay1 (F := Ideal) x0 x1 y = prod a0 a1 i := by
  have hy : y = ix3 (0 : Fin 1) (y 1) (y 2) := by
    funext d
    match d with
    | ⟨0, _⟩ => exact Fin.ext (by have h : (y 0).val < 1 := (y 0).isLt; show (y 0).val = 0; omega)
    | ⟨1, _⟩ => rfl
    | ⟨2, _⟩ => rfl
  refine (congrArg (k0_pay1 (F := Ideal) x0 x1) hy).trans ?_
  refine (pay_apply x0 x1 (y 1) (y 2)).trans ?_
  unfold prod
  exact Finset.sum_congr rfl fun j _ => by rw [h0 j, h1 j]

theorem hz3 : (![0, 0, 0] : Fin 3 → Nat) = fun _ => 0 := funext fun a => by fin_cases a <;> rfl

/-- The three windows' block indices at every point of the grid: point t works on matrix t / 4 and on row block t % 4
    of the left operand and of the output, and on the whole matrix t / 4 of the right operand. -/
theorem idx_facts : ∀ t : Fin cfg0.N,
    win0_2.index t (0 : Fin 3) = t.val / 4 ∧ win0_2.index t (1 : Fin 3) = t.val % 4 ∧ win0_2.index t (2 : Fin 3) = 0
    ∧ win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0 :=
  (by decide +kernel : ∀ t : Fin grid0.N, _)

/-- What point t writes back, over ANY contents of the two operand arrays: block t of their product. -/
theorem flushed_core (A0 : S27x32768x128.Idx → EReal) (A1 : S27x128x128.Idx → EReal) (t : Fin cfg0.N) :
    (cfg0.win 2).cut (grid0.coords t)
        (out0_2 (F := Ideal) (((cfg0.win 0).blk t).view.read (Elt Ideal) A0) (((cfg0.win 1).blk t).view.read (Elt Ideal) A1))
      = ((cfg0.win 2).blk t).view.read (Elt Ideal) (prod A0 A1) := by
  unfold out0_2
  rw [View.canon_unit_zero hz3]
  simp only [View.ld_unit_zero (S := S1x8192x128) hz3, View.ld_unit_zero (S := S1x128x128) hz3]
  obtain ⟨e20, e21, e22, e00, e01, e02, e10, e11, e12⟩ := idx_facts t
  refine funext fun (y : S1x8192x128.Idx) => ?_
  show k0_pay1 (F := Ideal) (((cfg0.win 0).blk t).view.read (Elt Ideal) A0) (((cfg0.win 1).blk t).view.read (Elt Ideal) A1) y
    = prod A0 A1 (((cfg0.win 2).blk t).view.emb y)
  have hy0 : (y 0).val < 1 := (y 0).isLt
  refine blk_point (((cfg0.win 0).blk t).view.read (Elt Ideal) A0) (((cfg0.win 1).blk t).view.read (Elt Ideal) A1) A0 A1 y
    (((cfg0.win 2).blk t).view.emb y) (fun j => ?_) (fun j => ?_)
  · show A0 (((cfg0.win 0).blk t).view.emb (ix3 (0 : Fin 1) (y 1) j : S1x8192x128.Idx))
      = A0 (ix3 (((cfg0.win 2).blk t).view.emb y 0) (((cfg0.win 2).blk t).view.emb y 1) j)
    refine congrArg A0 (funext fun a => Fin.ext ?_)
    match a with
    | ⟨0, _⟩ => show win0_0.index t (0 : Fin 3) * 1 + 1 * 0 = win0_2.index t (0 : Fin 3) * 1 + 1 * (y 0).val; omega
    | ⟨1, _⟩ => show win0_0.index t (1 : Fin 3) * 8192 + 1 * (y 1).val = win0_2.index t (1 : Fin 3) * 8192 + 1 * (y 1).val; omega
    | ⟨2, _⟩ => show win0_0.index t (2 : Fin 3) * 128 + 1 * j.val = j.val; omega
  · show A1 (((cfg0.win 1).blk t).view.emb (ix3 (0 : Fin 1) j (y 2) : S1x128x128.Idx))
      = A1 (ix3 (((cfg0.win 2).blk t).view.emb y 0) j (((cfg0.win 2).blk t).view.emb y 2))
    refine congrArg A1 (funext fun a => Fin.ext ?_)
    match a with
    | ⟨0, _⟩ => show win0_1.index t (0 : Fin 3) * 1 + 1 * 0 = win0_2.index t (0 : Fin 3) * 1 + 1 * (y 0).val; omega
    | ⟨1, _⟩ => show win0_1.index t (1 : Fin 3) * 128 + 1 * j.val = j.val; omega
    | ⟨2, _⟩ => show win0_1.index t (2 : Fin 3) * 128 + 1 * (y 2).val = win0_2.index t (2 : Fin 3) * 128 + 1 * (y 2).val; omega

/-- Input window 0's block at a point is the left operand array read through the block's rectangle. -/
theorem iblk0_eq (c : Dev nD) (t : Fin cfg0.N) :
    iblk (F := Ideal) m c 0 t = ((cfg0.win 0).blk t).view.read (Elt Ideal) (V (F := Ideal) m c main_v11) := rfl

/-- Input window 1's block at a point is the right operand array read through the block's rectangle. -/
theorem iblk1_eq (c : Dev nD) (t : Fin cfg0.N) :
    iblk (F := Ideal) m c 1 t = ((cfg0.win 1).blk t).view.read (Elt Ideal) (V (F := Ideal) m c main_v29) := rfl

/-- What point t writes back is block t of the product of the two operand arrays as the call finds them. -/
theorem flushed_eq (c : Dev nD) (t : Fin cfg0.N) :
    (dats (F := Ideal) m 0 c).flushed 2 t
      = ((cfg0.win 2).blk t).view.read (Elt Ideal) (prod (V (F := Ideal) m c main_v11) (V (F := Ideal) m c main_v29)) := by
  show (cfg0.win 2).cut (grid0.coords t) ((dats (F := Ideal) m 0 c).after 2 t) = _
  rw [after0_2, iblk0_eq, iblk1_eq]
  exact flushed_core (V (F := Ideal) m c main_v11) (V (F := Ideal) m c main_v29) t

/-- An index of the output array is in point t's block iff each coordinate is in the block's range on its axis. -/
theorem mem_blk (t : Fin cfg0.N) (i : S27x32768x128.Idx) :
    i ∈ ((cfg0.win 2).blk t).view.set ↔ ∀ a : Fin 3, win0_2.index t a * S1x8192x128.size a ≤ (i a).val ∧ (i a).val < win0_2.index t a * S1x8192x128.size a + S1x8192x128.size a := by
  show i ∈ ((View.whole main_v30).slice (win0_2.rect t)).set ↔ _
  rw [View.set_slice_whole, Rect.mem_set_unit]
  exact Iff.rfl

/-- Every entry of the output array is written back by some point: row q of offset k by the point (k, q / 8192). -/
theorem covered (i : S27x32768x128.Idx) :
    ∃ t : Fin cfg0.N, (cfg0.win 2).flush t = true ∧ i ∈ ((cfg0.win 2).blk t).view.set := by
  have hN : grid0.N = 108 := N_0
  have hi0 : (i 0).val < 27 := (i 0).isLt
  have hi1 : (i 1).val < 32768 := (i 1).isLt
  have hi2 : (i 2).val < 128 := (i 2).isLt
  obtain ⟨t, ht⟩ : ∃ t : Fin cfg0.N, t.val = (i 0).val * 4 + (i 1).val / 8192 :=
    ⟨⟨(i 0).val * 4 + (i 1).val / 8192, by show _ < grid0.N; omega⟩, rfl⟩
  obtain ⟨e20, e21, e22, -⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8192 ≤ (i 1).val ∧ (i 1).val < win0_2.index t (1 : Fin 3) * 8192 + 8192; omega
  | ⟨2, _⟩ => show win0_2.index t (2 : Fin 3) * 128 ≤ (i 2).val ∧ (i 2).val < win0_2.index t (2 : Fin 3) * 128 + 128; omega

/-- THE OUTPUT ARRAY AFTER THE CALL: the product of the two operand arrays as the call finds them. -/
theorem region_out (c : Dev nD) :
    (dats (F := Ideal) m 0 c).arrAt 2 cfg0.N = prod (V (F := Ideal) m c main_v11) (V (F := Ideal) m c main_v29) :=
  (dats (F := Ideal) m 0 c).arrAt_eq_of_cover 2 (prod (V (F := Ideal) m c main_v11) (V (F := Ideal) m c main_v29))
    (fun t _ => flushed_eq m c t) covered

/-- The product at explicit coordinates: entry (k, q, e) is the sum over j of left (k, q, j) times right (k, j, e). -/
theorem prod_apply (a0 : S27x32768x128.Idx → EReal) (a1 : S27x128x128.Idx → EReal) (k : Fin 27) (q : Fin 32768) (e : Fin 128) :
    prod a0 a1 (ix3 k q e) = ∑ j : Fin 128, a0 (ix3 k q j) * a1 (ix3 k j e) := rfl

end Cert.KernelIdeal.Conv

end
-- ==== Proof.LibScatterSet.lean ====
/-
  A scatter whose body returns the update (an indexed assignment), read at one entry of the result.

  The host's scatter is a left fold over the update positions in row-major order: position n, when its
  result index g n exists, replaces the entry there by the body applied to the old entry and the update's
  value val n. This file reads such a fold at a fixed entry i, for any list of positions:

    * (miss) if no position of the list lands at i, the entry is the starting array's;
    * (hit)  if the list has no repeats and exactly one position n0 of it lands at i, the entry is the body
             applied to the starting array's entry and val n0.

  The two corollaries say the same of the scatter itself, the positions being the update's multi-indices:
  an entry no update index lands at keeps the operand's value, and an entry exactly one update index j0
  lands at holds the body applied to the operand's value and the update's at j0.
-/
import Idealize.ShloMosaic.PureOps

namespace Idealize.ShloMosaic.ScatterSet

open Idealize.ShloMosaic

section Fold

variable {I α N : Type} [DecidableEq I]

/-- One step of the fold: position n writes the body's value at its result index, when it has one. -/
def step (g : N → Option I) (val : N → α) (f : α → α → α) (r : I → α) (n : N) : I → α :=
  match g n with
  | some i => fun i' => if i' = i then f (r i) (val n) else r i'
  | none => r

/-- A step whose position does not land at i leaves entry i alone. -/
theorem step_of_ne (g : N → Option I) (val : N → α) (f : α → α → α) (r : I → α) (n : N) (i : I)
    (h : g n ≠ some i) : step g val f r n i = r i := by
  unfold step
  cases hg : g n with
  | none => rfl
  | some i0 =>
    have hne : i ≠ i0 := fun e => h (by rw [hg, e])
    simp only [if_neg hne]

/-- A step whose position lands at i writes the body's value there. -/
theorem step_of_eq (g : N → Option I) (val : N → α) (f : α → α → α) (r : I → α) (n : N) (i : I)
    (h : g n = some i) : step g val f r n i = f (r i) (val n) := by
  unfold step
  rw [h]
  exact if_pos rfl

/-- (miss) No position of the list lands at i: entry i is the starting array's. -/
theorem foldl_miss (g : N → Option I) (val : N → α) (f : α → α → α) (L : List N) (x : I → α) (i : I)
    (h : ∀ n ∈ L, g n ≠ some i) : L.foldl (step g val f) x i = x i := by
  induction L generalizing x with
  | nil => rfl
  | cons n L ih =>
    rw [List.foldl_cons, ih _ (fun m hm => h m (List.mem_cons_of_mem _ hm)),
      step_of_ne g val f x n i (h n (List.mem_cons_self ..))]

/-- (hit) The list has no repeats and n0 is its one position landing at i: entry i is the body applied to the
    starting array's entry and the value at n0. -/
theorem foldl_hit (g : N → Option I) (val : N → α) (f : α → α → α) (L : List N) (hnd : L.Nodup) (x : I → α)
    (i : I) (n0 : N) (hn0 : n0 ∈ L) (hg : g n0 = some i) (huniq : ∀ n ∈ L, g n = some i → n = n0) :
    L.foldl (step g val f) x i = f (x i) (val n0) := by
  induction L generalizing x with
  | nil => cases hn0
  | cons n L ih =>
    rw [List.foldl_cons]
    have hnd' := List.nodup_cons.1 hnd
    rcases List.mem_cons.1 hn0 with hhead | hmem
    · subst hhead
      rw [foldl_miss g val f L _ i (fun m hm hgm => hnd'.1 (huniq m (List.mem_cons_of_mem _ hm) hgm ▸ hm)),
        step_of_eq g val f x n0 i hg]
    · have hne : n ≠ n0 := fun e => hnd'.1 (e ▸ hmem)
      rw [ih hnd'.2 _ hmem (fun m hm => huniq m (List.mem_cons_of_mem _ hm)),
        step_of_ne g val f x n i (fun hgn => hne (huniq n (List.mem_cons_self ..) hgn))]

end Fold

section Scatter

variable {s si u : Shape} {α : Type} {w : Nat}

/-- The scatter is the fold of `step` over the update positions in row-major order. -/
theorem scatter_eq_foldl (d : ScatterDims s si u) (f : α → α → α) (x : s.Idx → α) (idx : IVec si w)
    (upd : u.Idx → α) :
    Host.scatter d f x idx upd
      = (List.finRange u.numel).foldl
          (step (fun n => d.resultIdx? (u.rowMajor.symm n) idx) (fun n => upd (u.rowMajor.symm n)) f) x := by
  unfold Host.scatter
  congr 1
  funext r n
  unfold step
  beta_reduce
  cases d.resultIdx? (u.rowMajor.symm n) idx <;> rfl

/-- An entry no update index lands at keeps the operand's value. -/
theorem scatter_miss (d : ScatterDims s si u) (f : α → α → α) (x : s.Idx → α) (idx : IVec si w)
    (upd : u.Idx → α) (i : s.Idx) (h : ∀ j : u.Idx, d.resultIdx? j idx ≠ some i) :
    Host.scatter d f x idx upd i = x i := by
  rw [scatter_eq_foldl]
  exact foldl_miss _ _ f _ x i (fun n _ => h _)

/-- An entry exactly one update index j0 lands at holds the body applied to the operand's value and the
    update's at j0. -/
theorem scatter_hit (d : ScatterDims s si u) (f : α → α → α) (x : s.Idx → α) (idx : IVec si w)
    (upd : u.Idx → α) (i : s.Idx) (j0 : u.Idx) (h0 : d.resultIdx? j0 idx = some i)
    (huniq : ∀ j : u.Idx, d.resultIdx? j idx = some i → j = j0) :
    Host.scatter d f x idx upd i = f (x i) (upd j0) := by
  rw [scatter_eq_foldl]
  have := foldl_hit (fun n => d.resultIdx? (u.rowMajor.symm n) idx) (fun n => upd (u.rowMajor.symm n)) f
    (List.finRange u.numel) (List.nodup_finRange _) x i (u.rowMajor j0) (List.mem_finRange _)
    (by simpa using h0)
    (fun n _ hn => by
      have := huniq _ hn
      rw [← this]; simp)
  simpa using this

end Scatter

end Idealize.ShloMosaic.ScatterSet
-- ==== Proof.Weights.lean ====
/-
  The block-diagonal weight read at an entry.

  The program writes the 27 matrices x1[k] (32 x 32) four times into 27 zero matrices of 128 x 128, at the diagonal
  positions (0, 0), (32, 32), (64, 64) and (96, 96): each write is one scatter whose whole update is a single window
  placed at (0, o, o). Entry (k, j, c) of the result is therefore x1[k][j mod 32][c mod 32] when row j and column c lie
  in the same 32-wide band, and zero otherwise. Over the extended reals the final change of format is the identity.
-/
import proofs.«131994_j1125281432057_2_alg».proof.Proof.KDefs
import proofs.«131994_j1125281432057_2_alg».proof.Proof.LibScatterSet
import Idealize.ShloMosaic.Lib.ValueIdx
import Idealize.ShloMosaic.PureOps.Ideal.Laws

noncomputable section

namespace Cert.KernelIdeal.Conv

open Cert.KernelIdeal Cert.KernelIdeal.Gen Idealize.ShloMosaic Idealize.ShloMosaic.ValueIdx

variable {F : FTy → Type} [FloatOps F]

/-- A concatenation all of whose pieces hold the one value c everywhere holds c everywhere. -/
theorem concatenate_const {α : Type} {t : Shape} (a : Fin t.rank) (xs : List ((s : Shape) × (s.Idx → α)))
    (h : Shape.Concatenates (xs.map (·.1)) t a) (c : α) (hc : ∀ p ∈ xs, ∀ i, p.2 i = c) (j : t.Idx) :
    concatenate t a xs h j = c := by
  unfold concatenate
  exact hc _ (List.getElem_mem _) _

/-- The start index of a diagonal block is (o, o): both of its components are o. -/
theorem diagStart_apply (o : BitVec 32) (i : S2.Idx) : diagStart (F := F) o i = o := by
  unfold diagStart
  refine concatenate_const _ _ _ o ?_ i
  intro p hp q
  simp only [List.mem_cons, List.not_mem_nil, or_false] at hp
  rcases hp with rfl | rfl <;> rfl

local notation "dS" => scatter_S27x128x128_S2_S27x32x32_012_n_12_0

/-- The window starts at 0 on the matrix axis, which the start index does not name. -/
theorem start_diag0 (o : BitVec 32) (j : S27x32x32.Idx) (h : 0 < S27x128x128.rank) :
    (dS).start j (diagStart (F := F) o) ⟨0, h⟩ = 0 := by
  have e : (⟨0, h⟩ : Fin S27x128x128.rank) = 0 := rfl
  rw [e]
  unfold ScatterDims.start
  rw [dif_neg (by decide)]

/-- The window starts at o on the row axis. -/
theorem start_diag1 (o : BitVec 32) (j : S27x32x32.Idx) (h : 1 < S27x128x128.rank) :
    (dS).start j (diagStart (F := F) o) ⟨1, h⟩ = o.toInt := by
  have e : (⟨1, h⟩ : Fin S27x128x128.rank) = 1 := rfl
  rw [e]
  unfold ScatterDims.start
  rw [dif_pos (by decide), diagStart_apply]

/-- The window starts at o on the column axis. -/
theorem start_diag2 (o : BitVec 32) (j : S27x32x32.Idx) (h : 2 < S27x128x128.rank) :
    (dS).start j (diagStart (F := F) o) ⟨2, h⟩ = o.toInt := by
  have e : (⟨2, h⟩ : Fin S27x128x128.rank) = 2 := rfl
  rw [e]
  unfold ScatterDims.start
  rw [dif_pos (by decide), diagStart_apply]

/-- The window coordinate on each axis is the update index's own coordinate there. -/
theorem window_diag0 (a : Fin 27) (b e : Fin 32) (h : 0 < S27x128x128.rank) : (dS).window (ix3 a b e) ⟨0, h⟩ = a.val := by
  have e' : (⟨0, h⟩ : Fin S27x128x128.rank) = 0 := rfl
  rw [e']
  unfold ScatterDims.window
  rw [dif_pos (by decide)]
  rfl
theorem window_diag1 (a : Fin 27) (b e : Fin 32) (h : 1 < S27x128x128.rank) : (dS).window (ix3 a b e) ⟨1, h⟩ = b.val := by
  have e' : (⟨1, h⟩ : Fin S27x128x128.rank) = 1 := rfl
  rw [e']
  unfold ScatterDims.window
  rw [dif_pos (by decide)]
  rfl
theorem window_diag2 (a : Fin 27) (b e : Fin 32) (h : 2 < S27x128x128.rank) : (dS).window (ix3 a b e) ⟨2, h⟩ = e.val := by
  have e' : (⟨2, h⟩ : Fin S27x128x128.rank) = 2 := rfl
  rw [e']
  unfold ScatterDims.window
  rw [dif_pos (by decide)]
  rfl

/-- Update index (a, b, e) of the block written at (o, o) lands at entry (a, o + b, o + e), inside the operand. -/
theorem resultIdx_diag (o : BitVec 32) (n : Nat) (ho : o.toInt = (n : Int)) (hn : n + 32 ≤ 128)
    (a : Fin 27) (b e : Fin 32) :
    (dS).resultIdx? (ix3 a b e) (diagStart (F := F) o)
      = some (ix3 a ⟨n + b.val, by omega⟩ ⟨n + e.val, by omega⟩) := by
  have s0 : S27x128x128.size ⟨0, by decide⟩ = 27 := rfl
  have s1 : S27x128x128.size ⟨1, by decide⟩ = 128 := rfl
  have s2 : S27x128x128.size ⟨2, by decide⟩ = 128 := rfl
  have H : ∀ q, 0 ≤ (dS).start (ix3 a b e) (diagStart (F := F) o) q + (dS).window (ix3 a b e) q
      ∧ (dS).start (ix3 a b e) (diagStart (F := F) o) q + (dS).window (ix3 a b e) q < S27x128x128.size q := by
    intro q
    match q with
    | ⟨0, _⟩ => rw [start_diag0, window_diag0, s0]; omega
    | ⟨1, _⟩ => rw [start_diag1, window_diag1, s1, ho]; omega
    | ⟨2, _⟩ => rw [start_diag2, window_diag2, s2, ho]; omega
  unfold ScatterDims.resultIdx?
  rw [dif_pos H]
  congr 1
  funext q
  refine Fin.ext ?_
  match q with
  | ⟨0, _⟩ =>
    show ((dS).start (ix3 a b e) (diagStart (F := F) o) ⟨0, by decide⟩ + (dS).window (ix3 a b e) ⟨0, by decide⟩).toNat = a.val
    rw [start_diag0, window_diag0]; omega
  | ⟨1, _⟩ =>
    show ((dS).start (ix3 a b e) (diagStart (F := F) o) ⟨1, by decide⟩ + (dS).window (ix3 a b e) ⟨1, by decide⟩).toNat = n + b.val
    rw [start_diag1, window_diag1, ho]; omega
  | ⟨2, _⟩ =>
    show ((dS).start (ix3 a b e) (diagStart (F := F) o) ⟨2, by decide⟩ + (dS).window (ix3 a b e) ⟨2, by decide⟩).toNat = n + e.val
    rw [start_diag2, window_diag2, ho]; omega

/-- One block write read at an entry: inside the rows and columns [n, n + 32) it is the update's entry, outside the
    old array's. The offset n is a multiple of 32, so the position within the block is the remainder modulo 32. -/
theorem putBlock_apply (o : BitVec 32) (n : Nat) (ho : o.toInt = (n : Int)) (hn : n + 32 ≤ 128) (hm : n % 32 = 0)
    (acc : (⟨S27x128x128, .f32⟩ : BufTy).Contents (Elt F)) (x1 : (⟨S27x32x32, .f32⟩ : BufTy).Contents (Elt F))
    (k : Fin 27) (j c : Fin 128) :
    putBlock (F := F) o acc x1 (ix3 k j c)
      = if n ≤ j.val ∧ j.val < n + 32 ∧ n ≤ c.val ∧ c.val < n + 32
          then x1 (ix3 k ⟨j.val % 32, Nat.mod_lt _ (by decide)⟩ ⟨c.val % 32, Nat.mod_lt _ (by decide)⟩)
          else acc (ix3 k j c) := by
  unfold putBlock
  by_cases h : n ≤ j.val ∧ j.val < n + 32 ∧ n ≤ c.val ∧ c.val < n + 32
  · rw [if_pos h]
    refine ScatterSet.scatter_hit (dS) (fun _ b => b) acc (diagStart (F := F) o) x1 (ix3 k j c)
      (ix3 k ⟨j.val % 32, Nat.mod_lt _ (by decide)⟩ ⟨c.val % 32, Nat.mod_lt _ (by decide)⟩) ?_ ?_
    · rw [resultIdx_diag o n ho hn]
      congr 1
      funext q
      refine Fin.ext ?_
      match q with
      | ⟨0, _⟩ => rfl
      | ⟨1, _⟩ => show n + j.val % 32 = j.val; omega
      | ⟨2, _⟩ => show n + c.val % 32 = c.val; omega
    · intro j' hj'
      obtain ⟨a, b, e, rfl⟩ : ∃ (a : Fin 27) (b e : Fin 32), j' = ix3 a b e := ⟨j' 0, j' 1, j' 2, eq_ix3 j'⟩
      rw [resultIdx_diag o n ho hn] at hj'
      have hj'' := Option.some.inj hj'
      have l1 := b.isLt
      have l2 := e.isLt
      have e0 : a = k := congrFun hj'' (0 : Fin 3)
      have e1' : (⟨n + b.val, by omega⟩ : Fin 128) = j := congrFun hj'' (1 : Fin 3)
      have e2' : (⟨n + e.val, by omega⟩ : Fin 128) = c := congrFun hj'' (2 : Fin 3)
      have e1 : n + b.val = j.val := by rw [← e1']
      have e2 : n + e.val = c.val := by rw [← e2']
      funext q
      refine Fin.ext ?_
      match q with
      | ⟨0, _⟩ => exact congrArg Fin.val e0
      | ⟨1, _⟩ => show b.val = j.val % 32; omega
      | ⟨2, _⟩ => show e.val = c.val % 32; omega
  · rw [if_neg h]
    refine ScatterSet.scatter_miss (dS) (fun _ b => b) acc (diagStart (F := F) o) x1 (ix3 k j c) ?_
    intro j' hj'
    obtain ⟨a, b, e, rfl⟩ : ∃ (a : Fin 27) (b e : Fin 32), j' = ix3 a b e := ⟨j' 0, j' 1, j' 2, eq_ix3 j'⟩
    rw [resultIdx_diag o n ho hn] at hj'
    have hj'' := Option.some.inj hj'
    have l1 := b.isLt
    have l2 := e.isLt
    have e1' : (⟨n + b.val, by omega⟩ : Fin 128) = j := congrFun hj'' (1 : Fin 3)
    have e2' : (⟨n + e.val, by omega⟩ : Fin 128) = c := congrFun hj'' (2 : Fin 3)
    have e1 : n + b.val = j.val := by rw [← e1']
    have e2 : n + e.val = c.val := by rw [← e2']
    exact h (by omega)

/-- THE WEIGHT AT AN ENTRY: x1[k][j mod 32][c mod 32] when row j and column c lie in the same 32-wide band, zero
    otherwise. -/
theorem w4_apply (x1 : (⟨S27x32x32, .f32⟩ : BufTy).Contents (Elt Ideal)) (k : Fin 27) (j c : Fin 128) :
    w4 (F := Ideal) x1 (ix3 k j c)
      = if j.val / 32 = c.val / 32 then x1 (ix3 k ⟨j.val % 32, Nat.mod_lt _ (by decide)⟩ ⟨c.val % 32, Nat.mod_lt _ (by decide)⟩) else 0 := by
  unfold w4
  rw [truncf_apply,
    putBlock_apply 96#32 96 (by decide) (by decide) (by decide),
    putBlock_apply 64#32 64 (by decide) (by decide) (by decide),
    putBlock_apply 32#32 32 (by decide) (by decide) (by decide),
    putBlock_apply 0#32 0 (by decide) (by decide) (by decide)]
  have hz : broadcastInDim S27x128x128 ![] bcast_S_S27x128x128 (constant (F := Ideal) S_ .f32 0x00000000#32) (ix3 k j c) = 0 :=
    Ideal.ofBits_zero_f32
  rw [hz]
  have hj := j.isLt
  have hc := c.isLt
  split_ifs <;> first | rfl | omega

end Cert.KernelIdeal.Conv

end
-- ==== Proof.LibBlockDiag.lean ====
/-
  A sum against one column of a block-diagonal weight.

  Let a row `g` of length a·b be multiplied into a column of a weight that is block diagonal with a blocks of size b:
  the column, in block `c`, holds `w` in the rows of block `c` and zero in every other row. The sum over all a·b rows
  is then the sum over the b rows of block `c` alone: a zero factor annihilates its term whatever the other factor is,
  so only an additive commutative monoid with a multiplication by zero is needed (the extended reals are one).
-/
import Mathlib.Algebra.BigOperators.Fin
import Mathlib.Data.EReal.Operations
import Mathlib.Logic.Equiv.Fin.Basic

open scoped BigOperators

namespace BlockDiag

/-- Row `t` of block `c` is a row of the whole. -/
theorem row_lt {a b : ℕ} (c : Fin a) (t : Fin b) : t.val + b * c.val < a * b := by
  have hc := c.isLt
  have ht := t.isLt
  calc t.val + b * c.val < b + b * c.val := by omega
    _ = b * (c.val + 1) := by rw [Nat.mul_succ, Nat.add_comm]
    _ ≤ b * a := Nat.mul_le_mul_left _ (by omega)
    _ = a * b := Nat.mul_comm _ _

/-- The sum of a row against a block-diagonal column is the sum over the column's own block. -/
theorem sum_mul_blockDiag (a b : ℕ) (hb : 0 < b)
    (g : Fin (a * b) → EReal) (w : Fin b → EReal) (c : Fin a) :
    (∑ j : Fin (a * b), g j * (if j.val / b = c.val then w ⟨j.val % b, Nat.mod_lt _ hb⟩ else 0))
      = ∑ t : Fin b, g ⟨t.val + b * c.val, row_lt c t⟩ * w t := by
  have hd : ∀ (x : Fin a) (t : Fin b), (t.val + b * x.val) / b = x.val := fun x t => by
    rw [Nat.add_mul_div_left _ _ hb, Nat.div_eq_of_lt t.isLt, Nat.zero_add]
  have hm : ∀ (x : Fin a) (t : Fin b), (t.val + b * x.val) % b = t.val := fun x t => by
    rw [Nat.add_mul_mod_self_left, Nat.mod_eq_of_lt t.isLt]
  have he : ∀ (x : Fin a) (t : Fin b), finProdFinEquiv (x, t) = ⟨t.val + b * x.val, row_lt x t⟩ := fun _ _ => Fin.ext rfl
  rw [← Equiv.sum_comp finProdFinEquiv, Fintype.sum_prod_type, Finset.sum_eq_single c]
  · refine Finset.sum_congr rfl fun t _ => ?_
    rw [he]
    show g _ * (if (t.val + b * c.val) / b = c.val then w ⟨(t.val + b * c.val) % b, _⟩ else 0) = _
    rw [if_pos (hd c t)]
    have e : (⟨(t.val + b * c.val) % b, Nat.mod_lt _ hb⟩ : Fin b) = t := Fin.ext (hm c t)
    rw [e]
  · intro x _ hx
    refine Finset.sum_eq_zero fun t _ => ?_
    rw [he]
    show g _ * (if (t.val + b * x.val) / b = c.val then w ⟨(t.val + b * x.val) % b, _⟩ else 0) = 0
    rw [if_neg (by rw [hd x t]; exact fun h => hx (Fin.ext h)), mul_zero]
  · intro h; exact absurd (Finset.mem_univ c) h

end BlockDiag
-- ==== Proof.Bridge.lean ====
/-
  The two programs compute one function.

  Write G for the gathered rows (one 32-wide input row per pair), W_k for the 32 x 32 matrix of kernel offset k. The
  reference multiplies pair p's row by the matrix of its offset: contribution[p, o] = Σ_{t < 32} G[p, t] · W_k[t, o].
  The kernel folds the pairs 4q … 4q+3 of one offset into one 128-wide row and multiplies by the block-diagonal weight
  B_k[j, e] = W_k[j mod 32, e mod 32] if j and e lie in the same block of 32, and 0 otherwise; entry e = 32·b + o of the
  folded product is pair 4q + b's contribution at o, because every term with j outside block b has a zero factor. Both
  programs then add the contributions into the output rows and add the bias by the same operations.
-/
import proofs.«131994_j1125281432057_2_alg».proof.Proof.KDefs
import proofs.«131994_j1125281432057_2_alg».proof.Proof.Gen.ReferenceIdeal.Read
import proofs.«131994_j1125281432057_2_alg».proof.Proof.LibBlockDiag
import Idealize.ShloMosaic.Lib.Pipeline.Value
import Idealize.ShloMosaic.Lib.ValueIdx

noncomputable section

open scoped BigOperators

namespace Cert.KernelIdeal.Conv

open Cert.KernelIdeal Cert.KernelIdeal.Gen Idealize.ShloMosaic Idealize.ShloMosaic.ValueIdx

/-- The gathered rows are the reference's: a change of float format is the identity over the extended reals, and the
    row indices are computed from the pair table by the same operations. -/
theorem gathered_eq (x0 : (⟨S262144x32, .f32⟩ : BufTy).Contents (Elt Ideal)) (x3 : (⟨S3538944x2, .i32⟩ : BufTy).Contents (Elt Ideal)) :
    gathered (F := Ideal) x0 x3 = Cert.ReferenceIdeal.Read.val_main_v8 (F := Ideal) x0 x3 := by
  unfold gathered rowIdx Cert.ReferenceIdeal.Read.val_main_v8 Cert.ReferenceIdeal.Read.val_main_v7
    Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_v1
    Cert.ReferenceIdeal.Read.val_main_v0 Cert.ReferenceIdeal.Read.val_main_c Cert.ReferenceIdeal.Read.val_main_c_0
  rfl

/-- Adding the contributions into the output rows and adding the bias is the reference's last stretch. -/
theorem finish_eq (x0 : (⟨S262144x32, .f32⟩ : BufTy).Contents (Elt Ideal)) (x1 : (⟨S27x32x32, .f32⟩ : BufTy).Contents (Elt Ideal))
    (x2 : (⟨S32, .f32⟩ : BufTy).Contents (Elt Ideal)) (x3 : (⟨S3538944x2, .i32⟩ : BufTy).Contents (Elt Ideal)) :
    finish (F := Ideal) x2 x3 (Cert.ReferenceIdeal.Read.val_main_v11 (F := Ideal) x0 x1 x3)
      = Cert.ReferenceIdeal.Read.val_main_v19 (F := Ideal) x0 x1 x2 x3 := by
  unfold Cert.ReferenceIdeal.Read.val_main_v19 Cert.ReferenceIdeal.Read.val_main_v16
  generalize Cert.ReferenceIdeal.Read.val_main_v11 (F := Ideal) x0 x1 x3 = C
  unfold finish Cert.ReferenceIdeal.Read.val_main_v18
    Cert.ReferenceIdeal.Read.val_main_v17 Cert.ReferenceIdeal.Read.val_main_v15 Cert.ReferenceIdeal.Read.val_main_v14
    Cert.ReferenceIdeal.Read.val_main_v13 Cert.ReferenceIdeal.Read.val_main_v12 Cert.ReferenceIdeal.Read.val_main_cst
  rfl

/-! ## The layouts, read at an entry -/

/-- The pair whose row sits in lanes [32·(j/32), 32·(j/32) + 32) of folded row `q` of offset `k`. -/
def pairOf (k : Fin 27) (q : Fin 32768) (j : Fin 128) : Fin 3538944 :=
  ⟨k.val * 131072 + (q.val * 4 + j.val / 32), by have := k.isLt; have := q.isLt; have := j.isLt; omega⟩

/-- The lane within its pair's row. -/
def laneOf (j : Fin 128) : Fin 32 := ⟨j.val % 32, Nat.mod_lt _ (by decide)⟩

/-- Entry (k, q, j) of the folded rows is entry `j mod 32` of the row of pair `4q + j / 32` of offset `k`. -/
theorem packed_apply {α : Type} (G : S3538944x32.Idx → α) (k : Fin 27) (q : Fin 32768) (j : Fin 128) :
    shapeCast S27x32768x128 (shapeCast S27x131072x32 G shapeCasts_S3538944x32_S27x131072x32)
        shapeCasts_S27x131072x32_S27x32768x128 (ix3 k q j)
      = G (ix2 (pairOf k q j) (laneOf j)) := by
  have hk := k.isLt; have hq := q.isLt; have hj := j.isLt
  rw [shapeCast_apply _ shapeCasts_S27x131072x32_S27x32768x128 (ix3 k q j)
      (ix3 k (⟨q.val * 4 + j.val / 32, by omega⟩ : Fin 131072) (laneOf j)) (by
        rw [Shape.rowMajor_val_three, Shape.rowMajor_val_three]
        show (k.val * 131072 + (q.val * 4 + j.val / 32)) * 32 + j.val % 32 = (k.val * 32768 + q.val) * 128 + j.val
        omega),
    shapeCast_apply _ shapeCasts_S3538944x32_S27x131072x32 _ (ix2 (pairOf k q j) (laneOf j)) (by
        rw [Shape.rowMajor_val_two, Shape.rowMajor_val_three]
        show (k.val * 131072 + (q.val * 4 + j.val / 32)) * 32 + j.val % 32
          = (k.val * 131072 + (q.val * 4 + j.val / 32)) * 32 + j.val % 32
        rfl)]

/-- The offset, the folded row and the lane of entry `o` of pair `r`'s row. -/
def offsetOf (r : Fin 3538944) : Fin 27 := ⟨r.val / 131072, by have := r.isLt; omega⟩
def foldedRowOf (r : Fin 3538944) : Fin 32768 := ⟨r.val % 131072 / 4, by have := r.isLt; omega⟩
def foldedLaneOf (r : Fin 3538944) (o : Fin 32) : Fin 128 := ⟨r.val % 4 * 32 + o.val, by have := r.isLt; have := o.isLt; omega⟩

/-- Unfolding reads entry `o` of pair `r`'s row from lane `32·(r mod 4) + o` of its folded row. -/
theorem unpack_apply (Y : (⟨S27x32768x128, .f32⟩ : BufTy).Contents (Elt Ideal)) (r : Fin 3538944) (o : Fin 32) :
    unpack (F := Ideal) Y (ix2 r o) = Y (ix3 (offsetOf r) (foldedRowOf r) (foldedLaneOf r o)) := by
  have hr := r.isLt; have ho := o.isLt
  unfold unpack
  rw [shapeCast_apply _ shapeCasts_S27x131072x32_S3538944x32 (ix2 r o)
      (ix3 (offsetOf r) (⟨r.val % 131072, by omega⟩ : Fin 131072) o) (by
        rw [Shape.rowMajor_val_three, Shape.rowMajor_val_two]
        show (r.val / 131072 * 131072 + r.val % 131072) * 32 + o.val = r.val * 32 + o.val
        omega),
    shapeCast_apply _ shapeCasts_S27x32768x4x32_S27x131072x32 _
      (ix4 (offsetOf r) (foldedRowOf r) (⟨r.val % 4, by omega⟩ : Fin 4) o) (by
        rw [Shape.rowMajor_val_four, Shape.rowMajor_val_three]
        show ((r.val / 131072 * 32768 + r.val % 131072 / 4) * 4 + r.val % 4) * 32 + o.val
          = (r.val / 131072 * 131072 + r.val % 131072) * 32 + o.val
        omega),
    shapeCast_apply _ shapeCasts_S27x32768x128_S27x32768x4x32 _
      (ix3 (offsetOf r) (foldedRowOf r) (foldedLaneOf r o)) (by
        rw [Shape.rowMajor_val_three, Shape.rowMajor_val_four]
        show (r.val / 131072 * 32768 + r.val % 131072 / 4) * 128 + (r.val % 4 * 32 + o.val)
          = ((r.val / 131072 * 32768 + r.val % 131072 / 4) * 4 + r.val % 4) * 32 + o.val
        omega)]

/-! ## The contributions -/

/-- The folded product: folded row `q` of offset `k` against the weight of offset `k`, entry by entry. -/
def foldedProduct (P : (⟨S27x32768x128, .bf16⟩ : BufTy).Contents (Elt Ideal)) (B : (⟨S27x128x128, .bf16⟩ : BufTy).Contents (Elt Ideal)) :
    (⟨S27x32768x128, .f32⟩ : BufTy).Contents (Elt Ideal) :=
  fun i => ∑ j : Fin 128, P (ix3 (i 0) (i 1) j) * B (ix3 (i 0) j (i 2))

/-- For any weight `B` that is block diagonal with the offsets' matrices on the diagonal, the unfolded folded product
    is the reference's contribution array: in the sum over the 128 lanes only the 32 lanes of the entry's own block
    have a nonzero weight, and those are the lanes of the entry's own pair. -/
theorem contrib_eq (x0 : (⟨S262144x32, .f32⟩ : BufTy).Contents (Elt Ideal)) (x1 : (⟨S27x32x32, .f32⟩ : BufTy).Contents (Elt Ideal))
    (x3 : (⟨S3538944x2, .i32⟩ : BufTy).Contents (Elt Ideal)) (B : (⟨S27x128x128, .bf16⟩ : BufTy).Contents (Elt Ideal))
    (hB : ∀ (k : Fin 27) (j e : Fin 128),
      B (ix3 k j e) = if j.val / 32 = e.val / 32 then x1 (ix3 k (laneOf j) (laneOf e)) else 0) :
    unpack (F := Ideal) (foldedProduct (packed (F := Ideal) x0 x3) B)
      = Cert.ReferenceIdeal.Read.val_main_v11 (F := Ideal) x0 x1 x3 := by
  funext i
  obtain ⟨r, o, rfl⟩ : ∃ (r : Fin 3538944) (o : Fin 32), i = ix2 r o := ⟨i 0, i 1, eq_ix2 i⟩
  have hr := r.isLt
  have ho := o.isLt
  rw [unpack_apply, Cert.ReferenceIdeal.Read.val_main_v11_apply, Cert.ReferenceIdeal.Read.val_main_v10_apply]
  show (∑ j : Fin 128, packed (F := Ideal) x0 x3 (ix3 (offsetOf r) (foldedRowOf r) j)
      * B (ix3 (offsetOf r) j (foldedLaneOf r o))) = _
  unfold packed
  rw [gathered_eq]
  have hv9 : ∀ I, Cert.ReferenceIdeal.Read.val_main_v9 (F := Ideal) x0 x3 I
      = Cert.ReferenceIdeal.Read.val_main_v8 (F := Ideal) x0 x3 (Cert.ReferenceIdeal.Read.idx_main_v9 I) :=
    fun I => Cert.ReferenceIdeal.Read.val_main_v9_apply x0 x3 I
  simp only [hv9]
  generalize Cert.ReferenceIdeal.Read.val_main_v8 (F := Ideal) x0 x3 = G
  have hc : (foldedLaneOf r o).val / 32 < 4 := by show (r.val % 4 * 32 + o.val) / 32 < 4; omega
  refine (Finset.sum_congr rfl fun j _ => by rw [packed_apply, hB]).trans ?_
  refine (BlockDiag.sum_mul_blockDiag 4 32 (by decide)
    (fun j => G (ix2 (pairOf (offsetOf r) (foldedRowOf r) j) (laneOf j)))
    (fun t => x1 (ix3 (offsetOf r) t (laneOf (foldedLaneOf r o)))) ⟨(foldedLaneOf r o).val / 32, hc⟩).trans ?_
  refine Finset.sum_congr rfl fun t _ => ?_
  have ht := t.isLt
  have e1 : ix2 (pairOf (offsetOf r) (foldedRowOf r) ⟨t.val + 32 * ((foldedLaneOf r o).val / 32), BlockDiag.row_lt (a := 4) (⟨(foldedLaneOf r o).val / 32, hc⟩ : Fin 4) t⟩)
        (laneOf ⟨t.val + 32 * ((foldedLaneOf r o).val / 32), BlockDiag.row_lt (a := 4) (⟨(foldedLaneOf r o).val / 32, hc⟩ : Fin 4) t⟩)
      = Cert.ReferenceIdeal.Read.idx_main_v9
          (Cert.ReferenceIdeal.Read.lidx_main_v10 (Cert.ReferenceIdeal.Read.idx_main_v11 (ix2 r o)) t) :=
    funext fun a => Fin.ext (by
      match a with
      | ⟨0, _⟩ =>
        show r.val / 131072 * 131072 + (r.val % 131072 / 4 * 4 + (t.val + 32 * ((r.val % 4 * 32 + o.val) / 32)) / 32)
          = (((r.val * 32 + o.val) / 4194304 * 131072 + (r.val * 32 + o.val) / 32 % 131072) * 32 + t.val) / 32
        omega
      | ⟨1, _⟩ =>
        show (t.val + 32 * ((r.val % 4 * 32 + o.val) / 32)) % 32
          = (((r.val * 32 + o.val) / 4194304 * 131072 + (r.val * 32 + o.val) / 32 % 131072) * 32 + t.val) % 32
        omega)
  have e2 : ix3 (offsetOf r) t (laneOf (foldedLaneOf r o))
      = Cert.ReferenceIdeal.Read.ridx_main_v10 (Cert.ReferenceIdeal.Read.idx_main_v11 (ix2 r o)) t :=
    funext fun a => Fin.ext (by
      match a with
      | ⟨0, _⟩ => show r.val / 131072 = (r.val * 32 + o.val) / 4194304; omega
      | ⟨1, _⟩ => rfl
      | ⟨2, _⟩ => show (r.val % 4 * 32 + o.val) % 32 = (r.val * 32 + o.val) % 32; omega)
  show G _ * x1 _ = G _ * x1 _
  rw [e1, e2]

/-- The kernel's result, as a function of the arguments and of the weight, is the reference's. -/
theorem result_eq (x0 : (⟨S262144x32, .f32⟩ : BufTy).Contents (Elt Ideal)) (x1 : (⟨S27x32x32, .f32⟩ : BufTy).Contents (Elt Ideal))
    (x2 : (⟨S32, .f32⟩ : BufTy).Contents (Elt Ideal)) (x3 : (⟨S3538944x2, .i32⟩ : BufTy).Contents (Elt Ideal))
    (B : (⟨S27x128x128, .bf16⟩ : BufTy).Contents (Elt Ideal))
    (hB : ∀ (k : Fin 27) (j e : Fin 128),
      B (ix3 k j e) = if j.val / 32 = e.val / 32 then x1 (ix3 k (laneOf j) (laneOf e)) else 0) :
    finish (F := Ideal) x2 x3 (unpack (F := Ideal) (foldedProduct (packed (F := Ideal) x0 x3) B))
      = Cert.ReferenceIdeal.Read.val_main_v19 (F := Ideal) x0 x1 x2 x3 := by
  rw [contrib_eq x0 x1 x3 B hB]
  exact finish_eq x0 x1 x2 x3

end Cert.KernelIdeal.Conv

end
-- ==== Proof.KernelValue.lean ====
/-
  The kernel program's result is the reference's function of the argument arrays.

  The accelerator call leaves, in entry (k, q, e) of its output array, the sum over the 128 lanes of folded row q of
  offset k against column e of the weight of offset k. Its two operands are the folded gathered rows and the
  block-diagonal weight; with the weight read entry by entry, the unfolded products are the reference's contributions,
  and the operations after the call are the reference's own.
-/
import proofs.«131994_j1125281432057_2_alg».proof.Proof.Prefix
import proofs.«131994_j1125281432057_2_alg».proof.Proof.Region
import proofs.«131994_j1125281432057_2_alg».proof.Proof.Weights
import proofs.«131994_j1125281432057_2_alg».proof.Proof.Bridge

noncomputable section

namespace Cert.KernelIdeal.Conv

open Cert.KernelIdeal Cert.KernelIdeal.Gen Idealize.ShloMosaic Idealize.ShloMosaic.TcCoe Idealize.SL.Sem Idealize.ShloMosaic.ValueIdx

/-- What the program's result buffer ends at (the run's named result) is the reference's last stage of the program's own
    argument arrays. -/
theorem kernel_value (m : (ℓ : Loc nD τ sig) → Buf (Elt Ideal) ℓ) (c : Dev nD) :
    finish (F := Ideal) (m ((c.tc : Thread nD τ).loc main_arg2)) (m ((c.tc : Thread nD τ).loc main_arg3))
        (unpack (F := Ideal) ((dats (F := Ideal) m 0 c).arrAt 2 cfg0.N))
      = Cert.ReferenceIdeal.Read.val_main_v19 (F := Ideal) (m ((c.tc : Thread nD τ).loc main_arg0))
          (m ((c.tc : Thread nD τ).loc main_arg1)) (m ((c.tc : Thread nD τ).loc main_arg2)) (m ((c.tc : Thread nD τ).loc main_arg3)) := by
  rw [region_out m c, V_packed (F := Ideal) m c, V_w4 (F := Ideal) m c]
  exact result_eq _ _ _ _ (w4 (F := Ideal) (m ((c.tc : Thread nD τ).loc main_arg1))) (fun k j e => w4_apply _ k j e)

end Cert.KernelIdeal.Conv

end
-- ==== Proof.RefRead.lean ====
/-
  The reference's run, with its result stated as the composed stages of plainly typed copies of the argument arrays.

  The reference program is host operations only; its generated run ends with the result buffer at the operations'
  composed term of the launch contents of the argument buffers. Here that term is restated over any arrays `a0 … a3`
  the argument buffers are known to hold, so that a statement about another program's arrays can be carried over by
  four equations, each about one buffer of this program.
-/
import proofs.«131994_j1125281432057_2_alg».proof.Defs
import proofs.«131994_j1125281432057_2_alg».proof.Proof.Gen.ReferenceIdeal.Run
import proofs.«131994_j1125281432057_2_alg».proof.Proof.Gen.ReferenceIdeal.Read

noncomputable section

namespace Cert.ReferenceIdeal.RefValue

open Cert.ReferenceIdeal Cert.ReferenceIdeal.Gen Idealize.ShloMosaic Idealize.ShloMosaic.TcCoe Idealize.SL.Sem

/-- Every weakly fair execution of the reference terminates with the result buffer at the last stage of the arrays the
    argument buffers hold, and the argument buffers unchanged. -/
theorem run (m : (ℓ : Loc nD τ sig) → Buf (Elt Ideal) ℓ) (ρ : Dev nD → PrngReg)
    (a0 : Dev nD → (⟨S262144x32, .f32⟩ : BufTy).Contents (Elt Ideal)) (a1 : Dev nD → (⟨S27x32x32, .f32⟩ : BufTy).Contents (Elt Ideal))
    (a2 : Dev nD → (⟨S32, .f32⟩ : BufTy).Contents (Elt Ideal)) (a3 : Dev nD → (⟨S3538944x2, .i32⟩ : BufTy).Contents (Elt Ideal))
    (h : ∀ c : Dev nD, m ((c.tc : Thread nD τ).loc main_arg0) = a0 c ∧ m ((c.tc : Thread nD τ).loc main_arg1) = a1 c
      ∧ m ((c.tc : Thread nD τ).loc main_arg2) = a2 c ∧ m ((c.tc : Thread nD τ).loc main_arg3) = a3 c) :
    θ_run (defs (F := Ideal)) (onTc (τ := τ) (main (F := Ideal))) ⟨m, fun _ => 0, ρ⟩ fun r => ∀ c : Dev nD,
      r.2.mem ((c.tc : Thread nD τ).loc main_v19) = Read.val_main_v19 (F := Ideal) (a0 c) (a1 c) (a2 c) (a3 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ hr c => ⟨by
      rw [(hr c).1, Read.val_main_v19_eq, (h c).1, (h c).2.1, (h c).2.2.1, (h c).2.2.2], (hr c).2⟩)
    (Value.run (F := Ideal) m ρ)

end Cert.ReferenceIdeal.RefValue

end
-- ==== Proof.lean ====
/-
  A sparse 3-D convolution — gather one input row per (input, output) pair, multiply it by the 32 x 32 matrix of the
  pair's kernel offset, add the product into the pair's output row, add the bias — computed two ways.

  The reference multiplies the gathered rows, grouped by offset, by the offsets' matrices in one batched product. The
  kernel folds four consecutive pairs of one offset into one 128-wide row and multiplies, on the accelerator, by a
  128 x 128 weight holding four copies of the offset's matrix on its diagonal and zeros elsewhere; the zero blocks
  annihilate the other pairs' lanes, so each 32-lane group of the product is its own pair's contribution. Over the
  extended reals both programs therefore compute one function of the arguments: a change of float format is the
  identity, a product with zero is zero whatever the other factor, and the gather, the scatter-add and the bias are the
  same operations on both sides. No finiteness of the inputs is used.

  The three frames: the kernel programs' are the generated ones; the reference, which is host operations only, has its
  generated run with the result dropped. The idealization rewrote nothing, so there is nothing to preserve.
-/
import proofs.«131994_j1125281432057_2_alg».proof.Defs
import proofs.«131994_j1125281432057_2_alg».proof.Proof.Gen.Kernel
import proofs.«131994_j1125281432057_2_alg».proof.Proof.Gen.Kernel.Skeleton
import proofs.«131994_j1125281432057_2_alg».proof.Proof.Gen.Kernel.Launch
import proofs.«131994_j1125281432057_2_alg».proof.Proof.Gen.Kernel.Points
import proofs.«131994_j1125281432057_2_alg».proof.Proof.Gen.Kernel.Frame
import proofs.«131994_j1125281432057_2_alg».proof.Proof.Gen.KernelIdeal
import proofs.«131994_j1125281432057_2_alg».proof.Proof.Gen.KernelIdeal.Skeleton
import proofs.«131994_j1125281432057_2_alg».proof.Proof.Gen.KernelIdeal.Launch
import proofs.«131994_j1125281432057_2_alg».proof.Proof.Gen.KernelIdeal.Points
import proofs.«131994_j1125281432057_2_alg».proof.Proof.Gen.KernelIdeal.Frame
import proofs.«131994_j1125281432057_2_alg».proof.Proof.Gen.ReferenceIdeal
import proofs.«131994_j1125281432057_2_alg».proof.Proof.Gen.Pre_finite_inputs
import proofs.«131994_j1125281432057_2_alg».proof.Proof.Tail
import proofs.«131994_j1125281432057_2_alg».proof.Proof.KernelValue
import proofs.«131994_j1125281432057_2_alg».proof.Proof.RefRead
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.Value.run (F := Ideal) m ρ),
    trivial,
    fun m ρ m' ρ' _ hagree =>
      ⟨_, Cert.KernelIdeal.Conv.kernel_run m ρ,
        (θ_run Cert.ReferenceIdeal.defs _ _).mono
          (fun _ h c => ⟨(h c).1.trans (Cert.KernelIdeal.Conv.kernel_value m c).symm, (h c).2⟩)
          (Cert.ReferenceIdeal.RefValue.run m' ρ' _ _ _ _
            (fun c => ⟨(hagree c).1, (hagree c).2.1, (hagree c).2.2.1, (hagree c).2.2.2.1⟩))⟩⟩

end Cert.Proof

end
